-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x192x640 : Shape := ⟨4, ![4, 128, 192, 640]⟩
abbrev S_ : Shape := ⟨0, ![]⟩

class Facts : Prop where
  bcast_S_S4x128x192x640 : S_.BroadcastsInDim S4x128x192x640 (![] : Fin 0 → Fin S4x128x192x640.rank)
  reducesTo_S4x128x192x640_S_d0_1_2_3 : S4x128x192x640.ReducesTo [0, 1, 2, 3] S_
  h_S_ : 0 < S_.numel

variable [Facts]

def fn {F : FTy → Type} [FloatOps F] (main_arg0 : FVec F S4x128x192x640 .f32) (main_arg1 : FVec F S4x128x192x640 .f32) : IVec S_ 1 :=
  let main_v0 : FVec F S4x128x192x640 .f32 := Host.absf main_arg0
  let main_cst : FVec F S_ .f32 := constant S_ .f32 0x7F800000#32
  let main_v1 : FVec F S4x128x192x640 .f32 := broadcastInDim S4x128x192x640 ![] bcast_S_S4x128x192x640 main_cst
  let main_v2 : IVec S4x128x192x640 1 := cmpf .olt main_v0 main_v1
  let main_c : IVec S_ 1 := constantI S_ 1 1#1
  let main_v3 : IVec S_ 1 := (fun x v => Host.reduce IntOp.andi x v reducesTo_S4x128x192x640_S_d0_1_2_3 h_S_) main_v2 main_c
  let main_v4 : FVec F S4x128x192x640 .f32 := Host.absf main_arg1
  let main_cst_0 : FVec F S_ .f32 := constant S_ .f32 0x7F800000#32
  let main_v5 : FVec F S4x128x192x640 .f32 := broadcastInDim S4x128x192x640 ![] bcast_S_S4x128x192x640 main_cst_0
  let main_v6 : IVec S4x128x192x640 1 := cmpf .olt main_v4 main_v5
  let main_c_1 : IVec S_ 1 := constantI S_ 1 1#1
  let main_v7 : IVec S_ 1 := (fun x v => Host.reduce IntOp.andi x v reducesTo_S4x128x192x640_S_d0_1_2_3 h_S_) main_v6 main_c_1
  let main_v8 : IVec S_ 1 := andi main_v3 main_v7
  main_v8
-- ==== Kernel.lean ====
abbrev S4x128x192x640 : Shape := ⟨4, ![4, 128, 192, 640]⟩
abbrev S4x9x192x640 : Shape := ⟨4, ![4, 9, 192, 640]⟩
abbrev S1x128x24x640 : Shape := ⟨4, ![1, 128, 24, 640]⟩
abbrev S1x9x24x640 : Shape := ⟨4, ![1, 9, 24, 640]⟩
abbrev S128x24x648 : Shape := ⟨3, ![128, 24, 648]⟩
abbrev S128x24x640 : Shape := ⟨3, ![128, 24, 640]⟩
abbrev S24x640 : Shape := ⟨2, ![24, 640]⟩
abbrev S1x24x640 : Shape := ⟨3, ![1, 24, 640]⟩
abbrev S9x24x640 : Shape := ⟨3, ![9, 24, 640]⟩

abbrev nBuf : Space → Nat
  | .hbm => 3
  | .vmem => 7
  | .smem => 0
  | _ => 0

abbrev bufTy : (tb : Table) → Fin (tcTables nBuf tb) → BufTy
  | .hbm, ⟨0, _⟩ => ⟨S4x128x192x640, .f32⟩
  | .hbm, ⟨1, _⟩ => ⟨S4x128x192x640, .f32⟩
  | .hbm, ⟨2, _⟩ => ⟨S4x9x192x640, .f32⟩
  | .local _ .vmem, ⟨0, _⟩ => ⟨S1x128x24x640, .f32⟩
  | .local _ .vmem, ⟨1, _⟩ => ⟨S1x128x24x640, .f32⟩
  | .local _ .vmem, ⟨2, _⟩ => ⟨S1x128x24x640, .f32⟩
  | .local _ .vmem, ⟨3, _⟩ => ⟨S1x128x24x640, .f32⟩
  | .local _ .vmem, ⟨4, _⟩ => ⟨S1x9x24x640, .f32⟩
  | .local _ .vmem, ⟨5, _⟩ => ⟨S1x9x24x640, .f32⟩
  | .local _ .vmem, ⟨6, _⟩ => ⟨S128x24x648, .f32⟩
  | _, _ => ⟨S4x128x192x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x24x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x24x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x24x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x24x648_S128x24x648_0_0_0 : ∀ a, (![0, 0, 0] : Fin 3 → Nat) a + S128x24x648.size a ≤ S128x24x648.size a
  h_S128x24x648 : 0 < S128x24x648.numel
  shapeCasts_S128x24x648_S128x24x648 : S128x24x648.ShapeCasts S128x24x648
  inb_S1x128x24x640_S1x128x24x640_0_0_0_0 : ∀ a, (![0, 0, 0, 0] : Fin 4 → Nat) a + S1x128x24x640.size a ≤ S1x128x24x640.size a
  h_S1x128x24x640 : 0 < S1x128x24x640.numel
  shapeCasts_S1x128x24x640_S128x24x640 : S1x128x24x640.ShapeCasts S128x24x640
  inb_S128x24x648_S128x24x640_0_0_4 : ∀ a, (![0, 0, 4] : Fin 3 → Nat) a + S128x24x640.size a ≤ S128x24x648.size a
  h_S128x24x640 : 0 < S128x24x640.numel
  shapeCasts_S128x24x640_S128x24x640 : S128x24x640.ShapeCasts S128x24x640
  inb_S128x24x648_S128x24x640_0_0_0 : ∀ a, (![0, 0, 0] : Fin 3 → Nat) a + S128x24x640.size a ≤ S128x24x648.size a
  reduces_S128x24x640_S24x640 : S128x24x640.Reduces [0] S24x640
  inb_S128x24x648_S128x24x640_0_0_1 : ∀ a, (![0, 0, 1] : Fin 3 → Nat) a + S128x24x640.size a ≤ S128x24x648.size a
  inb_S128x24x648_S128x24x640_0_0_2 : ∀ a, (![0, 0, 2] : Fin 3 → Nat) a + S128x24x640.size a ≤ S128x24x648.size a
  inb_S128x24x648_S128x24x640_0_0_3 : ∀ a, (![0, 0, 3] : Fin 3 → Nat) a + S128x24x640.size a ≤ S128x24x648.size a
  inb_S128x24x648_S128x24x640_0_0_5 : ∀ a, (![0, 0, 5] : Fin 3 → Nat) a + S128x24x640.size a ≤ S128x24x648.size a
  inb_S128x24x648_S128x24x640_0_0_6 : ∀ a, (![0, 0, 6] : Fin 3 → Nat) a + S128x24x640.size a ≤ S128x24x648.size a
  inb_S128x24x648_S128x24x640_0_0_7 : ∀ a, (![0, 0, 7] : Fin 3 → Nat) a + S128x24x640.size a ≤ S128x24x648.size a
  inb_S128x24x648_S128x24x640_0_0_8 : ∀ a, (![0, 0, 8] : Fin 3 → Nat) a + S128x24x640.size a ≤ S128x24x648.size a
  shapeCasts_S24x640_S1x24x640 : S24x640.ShapeCasts S1x24x640
  concatenates_S1x24x640_S1x24x640_S1x24x640_S1x24x640_S1x24x640_S1x24x640_S1x24x640_S1x24x640_S1x24x640_S9x24x640_d0 : Shape.Concatenates [S1x24x640, S1x24x640, S1x24x640, S1x24x640, S1x24x640, S1x24x640, S1x24x640, S1x24x640, S1x24x640] S9x24x640 0
  inb_S1x9x24x640_S1x9x24x640_0_0_0_0 : ∀ a, (![0, 0, 0, 0] : Fin 4 → Nat) a + S1x9x24x640.size a ≤ S1x9x24x640.size a
  h_S1x9x24x640 : 0 < S1x9x24x640.numel
  shapeCasts_S1x9x24x640_S9x24x640 : S1x9x24x640.ShapeCasts S9x24x640
  shapeCasts_S9x24x640_S1x9x24x640 : S9x24x640.ShapeCasts S1x9x24x640
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x24x640.size a ≤ S4x128x192x640.size a
  hwx0_0 : ∀ i : grid0.Coords, EltTy.bits .f32 = 32 ∨ (Rect.block (s := S4x128x192x640) S1x128x24x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x24x640.size a ≤ S4x128x192x640.size a
  hwx0_1 : ∀ i : grid0.Coords, EltTy.bits .f32 = 32 ∨ (Rect.block (s := S4x128x192x640) S1x128x24x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x24x640.size a ≤ S4x9x192x640.size a
  hwx0_2 : ∀ i : grid0.Coords, EltTy.bits .f32 = 32 ∨ (Rect.block (s := S4x9x192x640) S1x9x24x640.size (cc0_transform_2 i) (hinb0_2 i)).WholeWords (EltTy.packing .f32)

variable [Facts₀]

abbrev win0_0 : Pipeline.Window sig grid0 :=
  Pipeline.Window.ofSpec (Memref.whole main_arg0) S1x128x24x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x24x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9x24x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x192x640 : Shape := ⟨4, ![4, 128, 192, 640]⟩
abbrev S_ : Shape := ⟨0, ![]⟩
abbrev S4x128x192x648 : Shape := ⟨4, ![4, 128, 192, 648]⟩
abbrev S4x192x640 : Shape := ⟨3, ![4, 192, 640]⟩
abbrev S4x1x192x640 : Shape := ⟨4, ![4, 1, 192, 640]⟩
abbrev S4x9x192x640 : Shape := ⟨4, ![4, 9, 192, 640]⟩

abbrev nBuf : Space → Nat
  | .hbm => 78
  | .vmem => 0
  | .smem => 0
  | _ => 0

abbrev bufTy : (tb : Table) → Fin (tcTables nBuf tb) → BufTy
  | .hbm, ⟨0, _⟩ => ⟨S4x128x192x640, .f32⟩
  | .hbm, ⟨1, _⟩ => ⟨S4x128x192x640, .f32⟩
  | .hbm, ⟨2, _⟩ => ⟨S_, .i32⟩
  | .hbm, ⟨3, _⟩ => ⟨S_, .f32⟩
  | .hbm, ⟨4, _⟩ => ⟨S4x128x192x648, .f32⟩
  | .hbm, ⟨5, _⟩ => ⟨S4x128x192x640, .f32⟩
  | .hbm, ⟨6, _⟩ => ⟨S4x128x192x640, .f32⟩
  | .hbm, ⟨7, _⟩ => ⟨S_, .f32⟩
  | .hbm, ⟨8, _⟩ => ⟨S4x192x640, .f32⟩
  | .hbm, ⟨9, _⟩ => ⟨S_, .f32⟩
  | .hbm, ⟨10, _⟩ => ⟨S4x192x640, .f32⟩
  | .hbm, ⟨11, _⟩ => ⟨S4x192x640, .f32⟩
  | .hbm, ⟨12, _⟩ => ⟨S4x128x192x640, .f32⟩
  | .hbm, ⟨13, _⟩ => ⟨S4x128x192x640, .f32⟩
  | .hbm, ⟨14, _⟩ => ⟨S_, .f32⟩
  | .hbm, ⟨15, _⟩ => ⟨S4x192x640, .f32⟩
  | .hbm, ⟨16, _⟩ => ⟨S_, .f32⟩
  | .hbm, ⟨17, _⟩ => ⟨S4x192x640, .f32⟩
  | .hbm, ⟨18, _⟩ => ⟨S4x192x640, .f32⟩
  | .hbm, ⟨19, _⟩ => ⟨S4x128x192x640, .f32⟩
  | .hbm, ⟨20, _⟩ => ⟨S4x128x192x640, .f32⟩
  | .hbm, ⟨21, _⟩ => ⟨S_, .f32⟩
  | .hbm, ⟨22, _⟩ => ⟨S4x192x640, .f32⟩
  | .hbm, ⟨23, _⟩ => ⟨S_, .f32⟩
  | .hbm, ⟨24, _⟩ => ⟨S4x192x640, .f32⟩
  | .hbm, ⟨25, _⟩ => ⟨S4x192x640, .f32⟩
  | .hbm, ⟨26, _⟩ => ⟨S4x128x192x640, .f32⟩
  | .hbm, ⟨27, _⟩ => ⟨S4x128x192x640, .f32⟩
  | .hbm, ⟨28, _⟩ => ⟨S_, .f32⟩
  | .hbm, ⟨29, _⟩ => ⟨S4x192x640, .f32⟩
  | .hbm, ⟨30, _⟩ => ⟨S_, .f32⟩
  | .hbm, ⟨31, _⟩ => ⟨S4x192x640, .f32⟩
  | .hbm, ⟨32, _⟩ => ⟨S4x192x640, .f32⟩
  | .hbm, ⟨33, _⟩ => ⟨S4x128x192x640, .f32⟩
  | .hbm, ⟨34, _⟩ => ⟨S4x128x192x640, .f32⟩
  | .hbm, ⟨35, _⟩ => ⟨S_, .f32⟩
  | .hbm, ⟨36, _⟩ => ⟨S4x192x640, .f32⟩
  | .hbm, ⟨37, _⟩ => ⟨S_, .f32⟩
  | .hbm, ⟨38, _⟩ => ⟨S4x192x640, .f32⟩
  | .hbm, ⟨39, _⟩ => ⟨S4x192x640, .f32⟩
  | .hbm, ⟨40, _⟩ => ⟨S4x128x192x640, .f32⟩
  | .hbm, ⟨41, _⟩ => ⟨S4x128x192x640, .f32⟩
  | .hbm, ⟨42, _⟩ => ⟨S_, .f32⟩
  | .hbm, ⟨43, _⟩ => ⟨S4x192x640, .f32⟩
  | .hbm, ⟨44, _⟩ => ⟨S_, .f32⟩
  | .hbm, ⟨45, _⟩ => ⟨S4x192x640, .f32⟩
  | .hbm, ⟨46, _⟩ => ⟨S4x192x640, .f32⟩
  | .hbm, ⟨47, _⟩ => ⟨S4x128x192x640, .f32⟩
  | .hbm, ⟨48, _⟩ => ⟨S4x128x192x640, .f32⟩
  | .hbm, ⟨49, _⟩ => ⟨S_, .f32⟩
  | .hbm, ⟨50, _⟩ => ⟨S4x192x640, .f32⟩
  | .hbm, ⟨51, _⟩ => ⟨S_, .f32⟩
  | .hbm, ⟨52, _⟩ => ⟨S4x192x640, .f32⟩
  | .hbm, ⟨53, _⟩ => ⟨S4x192x640, .f32⟩
  | .hbm, ⟨54, _⟩ => ⟨S4x128x192x640, .f32⟩
  | .hbm, ⟨55, _⟩ => ⟨S4x128x192x640, .f32⟩
  | .hbm, ⟨56, _⟩ => ⟨S_, .f32⟩
  | .hbm, ⟨57, _⟩ => ⟨S4x192x640, .f32⟩
  | .hbm, ⟨58, _⟩ => ⟨S_, .f32⟩
  | .hbm, ⟨59, _⟩ => ⟨S4x192x640, .f32⟩
  | .hbm, ⟨60, _⟩ => ⟨S4x192x640, .f32⟩
  | .hbm, ⟨61, _⟩ => ⟨S4x128x192x640, .f32⟩
  | .hbm, ⟨62, _⟩ => ⟨S4x128x192x640, .f32⟩
  | .hbm, ⟨63, _⟩ => ⟨S_, .f32⟩
  | .hbm, ⟨64, _⟩ => ⟨S4x192x640, .f32⟩
  | .hbm, ⟨65, _⟩ => ⟨S_, .f32⟩
  | .hbm, ⟨66, _⟩ => ⟨S4x192x640, .f32⟩
  | .hbm, ⟨67, _⟩ => ⟨S4x192x640, .f32⟩
  | .hbm, ⟨68, _⟩ => ⟨S4x1x192x640, .f32⟩
  | .hbm, ⟨69, _⟩ => ⟨S4x1x192x640, .f32⟩
  | .hbm, ⟨70, _⟩ => ⟨S4x1x192x640, .f32⟩
  | .hbm, ⟨71, _⟩ => ⟨S4x1x192x640, .f32⟩
  | .hbm, ⟨72, _⟩ => ⟨S4x1x192x640, .f32⟩
  | .hbm, ⟨73, _⟩ => ⟨S4x1x192x640, .f32⟩
  | .hbm, ⟨74, _⟩ => ⟨S4x1x192x640, .f32⟩
  | .hbm, ⟨75, _⟩ => ⟨S4x1x192x640, .f32⟩
  | .hbm, ⟨76, _⟩ => ⟨S4x1x192x640, .f32⟩
  | .hbm, ⟨77, _⟩ => ⟨S4x9x192x640, .f32⟩
  | _, _ => ⟨S4x128x192x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  pads_S4x128x192x640_S4x128x192x648_000_000_000_440 : S4x128x192x640.Pads (![0, 0, 0, 4] : Fin 4 → Nat) ![0, 0, 0, 4] ![0, 0, 0, 0] S4x128x192x648
  h_S_ : 0 < S_.numel
  slices_S4x128x192x648_S4x128x192x640_0_0_0_0 : S4x128x192x648.Slices ![0, 0, 0, 0] S4x128x192x640
  reducesTo_S4x128x192x640_S4x192x640_d1 : S4x128x192x640.ReducesTo [1] S4x192x640
  bcast_S_S4x192x640 : S_.BroadcastsInDim S4x192x640 (![] : Fin 0 → Fin S4x192x640.rank)
  slices_S4x128x192x648_S4x128x192x640_0_0_0_1 : S4x128x192x648.Slices ![0, 0, 0, 1] S4x128x192x640
  slices_S4x128x192x648_S4x128x192x640_0_0_0_2 : S4x128x192x648.Slices ![0, 0, 0, 2] S4x128x192x640
  slices_S4x128x192x648_S4x128x192x640_0_0_0_3 : S4x128x192x648.Slices ![0, 0, 0, 3] S4x128x192x640
  slices_S4x128x192x648_S4x128x192x640_0_0_0_4 : S4x128x192x648.Slices ![0, 0, 0, 4] S4x128x192x640
  slices_S4x128x192x648_S4x128x192x640_0_0_0_5 : S4x128x192x648.Slices ![0, 0, 0, 5] S4x128x192x640
  slices_S4x128x192x648_S4x128x192x640_0_0_0_6 : S4x128x192x648.Slices ![0, 0, 0, 6] S4x128x192x640
  slices_S4x128x192x648_S4x128x192x640_0_0_0_7 : S4x128x192x648.Slices ![0, 0, 0, 7] S4x128x192x640
  slices_S4x128x192x648_S4x128x192x640_0_0_0_8 : S4x128x192x648.Slices ![0, 0, 0, 8] S4x128x192x640
  bcast_S4x192x640_S4x1x192x640_0_2_3 : S4x192x640.BroadcastsInDim S4x1x192x640 (![0, 2, 3] : Fin 3 → Fin S4x1x192x640.rank)
  concatenates_S4x1x192x640_S4x1x192x640_S4x1x192x640_S4x1x192x640_S4x1x192x640_S4x1x192x640_S4x1x192x640_S4x1x192x640_S4x1x192x640_S4x9x192x640_d1 : Shape.Concatenates [S4x1x192x640, S4x1x192x640, S4x1x192x640, S4x1x192x640, S4x1x192x640, S4x1x192x640, S4x1x192x640, S4x1x192x640, S4x1x192x640] S4x9x192x640 1

variable [Facts₀]

class Facts : Prop extends Facts₀ where

variable [Facts]
-- ==== Proof.Spec.lean ====
/- The horizontal cost volume as one function of the two feature arrays.

   For a batch entry b, a row h and a column w, and for each of the nine shifts j = 0 … 8, the result is the mean
   over the 128 channels c of  feature1[b, c, h, w] · P[b, c, h, w + j],  where P is feature2 with four zero columns
   added on each side of the width axis (so P[…, x] = feature2[…, x − 4] for 4 ≤ x < 644 and 0 elsewhere).
   The mean is the sum divided by the float 128. Stated over rows, so that the same function describes one block of
   24 rows and the whole array. -/
import Idealize.ShloMosaic.PureOps.Ideal
import Idealize.ShloMosaic.Lib.ValueIdx

noncomputable section

open scoped BigOperators

namespace CostVolume

open Idealize.ShloMosaic Idealize.ShloMosaic.ValueIdx

/-- A row of 640 entries with four zeros added on each side, read at column `x` of the widened row: columns
    4 … 643 hold the row, every other column reads zero. -/
def padRow (row : Fin 640 → EReal) (x : ℕ) : EReal :=
  if h : 4 ≤ x ∧ x < 644 then row ⟨x - 4, by omega⟩ else 0

/-- Inside the row: column `x + 4` of the widened row is entry `x`. -/
theorem padRow_inside (row : Fin 640 → EReal) (x : ℕ) (h : 4 ≤ x ∧ x < 644) :
    padRow row x = row ⟨x - 4, by omega⟩ := dif_pos h

/-- In the added columns the widened row is zero. -/
theorem padRow_outside (row : Fin 640 → EReal) (x : ℕ) (h : ¬(4 ≤ x ∧ x < 644)) : padRow row x = 0 := dif_neg h

/-- For rows `a c` and `b c` of the two features, one per channel `c`: the mean over the 128 channels of
    `a c w` times the widened `b c` at column `w + j` — the sum divided by the float 128. -/
def shiftMean (a b : Fin 128 → Fin 640 → EReal) (j : ℕ) (w : Fin 640) : EReal :=
  Ideal.div (∑ c : Fin 128, a c w * padRow (b c) (w.val + j)) (Ideal.ofBits .f32 0x43000000#32)

/-- The cost volume of the two feature arrays `f`, `g` of shape [4, 128, 192, 640]: at (b, j, h, w) the shifted
    mean of the rows (b, ·, h, ·) of the two arrays at shift `j` and column `w`. -/
def costVolume (f g : (⟨4, ![4, 128, 192, 640]⟩ : Shape).Idx → EReal) : (⟨4, ![4, 9, 192, 640]⟩ : Shape).Idx → EReal :=
  fun i => shiftMean (fun c x => f (ix4 (i 0) c (i 2) x)) (fun c x => g (ix4 (i 0) c (i 2) x)) (i 1).val (i 3)

end CostVolume

end
-- ==== Proof.Stack.lean ====
/- Nine pieces, each one entry thick along an axis, laid one after the other along that axis: entry `j` along the
   axis of the stack is piece `j`. Stated for the two stacks met here — nine [1, 24, 640] slabs stacked into
   [9, 24, 640], and nine [4, 1, 192, 640] arrays stacked into [4, 9, 192, 640] along the second axis. -/
import Idealize.ShloMosaic.Lib.Pipeline.Value
import Idealize.ShloMosaic.Lib.ValueIdx

noncomputable section

namespace CostVolume

open Idealize.ShloMosaic Idealize.ShloMosaic.ValueIdx

variable {α : Type}

/-- Nine [1, 24, 640] slabs stacked along the first axis, read at (j, r, w): slab `j` at (0, r, w). -/
theorem stack_rows_apply (p : Fin 9 → ((⟨3, ![1, 24, 640]⟩ : Shape).Idx → α))
    (h : Shape.Concatenates (([⟨⟨3, ![1, 24, 640]⟩, p 0⟩, ⟨⟨3, ![1, 24, 640]⟩, p 1⟩, ⟨⟨3, ![1, 24, 640]⟩, p 2⟩, ⟨⟨3, ![1, 24, 640]⟩, p 3⟩, ⟨⟨3, ![1, 24, 640]⟩, p 4⟩, ⟨⟨3, ![1, 24, 640]⟩, p 5⟩, ⟨⟨3, ![1, 24, 640]⟩, p 6⟩, ⟨⟨3, ![1, 24, 640]⟩, p 7⟩, ⟨⟨3, ![1, 24, 640]⟩, p 8⟩] : List ((s : Shape) × (s.Idx → α))).map (·.1)) ⟨3, ![9, 24, 640]⟩ 0)
    (j : Fin 9) (r : Fin 24) (w : Fin 640) :
    concatenate ⟨3, ![9, 24, 640]⟩ 0 [⟨⟨3, ![1, 24, 640]⟩, p 0⟩, ⟨⟨3, ![1, 24, 640]⟩, p 1⟩, ⟨⟨3, ![1, 24, 640]⟩, p 2⟩, ⟨⟨3, ![1, 24, 640]⟩, p 3⟩, ⟨⟨3, ![1, 24, 640]⟩, p 4⟩, ⟨⟨3, ![1, 24, 640]⟩, p 5⟩, ⟨⟨3, ![1, 24, 640]⟩, p 6⟩, ⟨⟨3, ![1, 24, 640]⟩, p 7⟩, ⟨⟨3, ![1, 24, 640]⟩, p 8⟩] h (ix3 j r w) = p j (ix3 (0 : Fin 1) r w) :=
  concatenate_ofFn_unit_apply (t := ⟨3, ![9, 24, 640]⟩) (s₁ := ⟨3, ![1, 24, 640]⟩) 0 p h rfl rfl (ix3 j r w) j rfl
    (ix3 (0 : Fin 1) r w) (fun b hb => match b with
      | ⟨0, _⟩ => absurd rfl hb
      | ⟨1, _⟩ => rfl
      | ⟨2, _⟩ => rfl)

/-- Nine [4, 1, 192, 640] arrays stacked along the second axis, read at (b, j, h, w): array `j` at (b, 0, h, w). -/
theorem stack_shifts_apply (p : Fin 9 → ((⟨4, ![4, 1, 192, 640]⟩ : Shape).Idx → α))
    (h : Shape.Concatenates (([⟨⟨4, ![4, 1, 192, 640]⟩, p 0⟩, ⟨⟨4, ![4, 1, 192, 640]⟩, p 1⟩, ⟨⟨4, ![4, 1, 192, 640]⟩, p 2⟩, ⟨⟨4, ![4, 1, 192, 640]⟩, p 3⟩, ⟨⟨4, ![4, 1, 192, 640]⟩, p 4⟩, ⟨⟨4, ![4, 1, 192, 640]⟩, p 5⟩, ⟨⟨4, ![4, 1, 192, 640]⟩, p 6⟩, ⟨⟨4, ![4, 1, 192, 640]⟩, p 7⟩, ⟨⟨4, ![4, 1, 192, 640]⟩, p 8⟩] : List ((s : Shape) × (s.Idx → α))).map (·.1)) ⟨4, ![4, 9, 192, 640]⟩ 1)
    (b : Fin 4) (j : Fin 9) (r : Fin 192) (w : Fin 640) :
    concatenate ⟨4, ![4, 9, 192, 640]⟩ 1 [⟨⟨4, ![4, 1, 192, 640]⟩, p 0⟩, ⟨⟨4, ![4, 1, 192, 640]⟩, p 1⟩, ⟨⟨4, ![4, 1, 192, 640]⟩, p 2⟩, ⟨⟨4, ![4, 1, 192, 640]⟩, p 3⟩, ⟨⟨4, ![4, 1, 192, 640]⟩, p 4⟩, ⟨⟨4, ![4, 1, 192, 640]⟩, p 5⟩, ⟨⟨4, ![4, 1, 192, 640]⟩, p 6⟩, ⟨⟨4, ![4, 1, 192, 640]⟩, p 7⟩, ⟨⟨4, ![4, 1, 192, 640]⟩, p 8⟩] h (ix4 b j r w) = p j (ix4 b (0 : Fin 1) r w) :=
  concatenate_ofFn_unit_apply (t := ⟨4, ![4, 9, 192, 640]⟩) (s₁ := ⟨4, ![4, 1, 192, 640]⟩) 1 p h rfl rfl (ix4 b j r w) j rfl
    (ix4 b (0 : Fin 1) r w) (fun a ha => match a with
      | ⟨0, _⟩ => rfl
      | ⟨1, _⟩ => absurd rfl ha
      | ⟨2, _⟩ => rfl
      | ⟨3, _⟩ => rfl)

end CostVolume

end
-- ==== Proof.Block.lean ====
/- What one grid point leaves in its output block.

   The body fills a scratch slab of shape [128, 24, 648] with zeros and writes the point's block of feature2 into its
   columns 4 … 643: the slab is the block of feature2 widened by four zero columns on each side. For each shift
   k = 0 … 8 it multiplies the block of feature1 entry by entry with columns k … k + 639 of the slab, sums over the 128
   channels and divides by the float 128; the nine [24, 640] results are stacked and stored as the output block.
   So entry (0, j, r, w) of the output block is the shifted mean of rows (0, ·, r, ·) of the two input blocks. -/
import proofs.«147680_j56745107914800_1_alg».proof.Proof.Gen.KernelIdeal.Value
import proofs.«147680_j56745107914800_1_alg».proof.Proof.Spec
import proofs.«147680_j56745107914800_1_alg».proof.Proof.Stack
import Idealize.ShloMosaic.Lib.ValueLayout
import Idealize.ShloMosaic.PureOps.Ideal.Laws

set_option maxRecDepth 16384

noncomputable section

open scoped BigOperators

namespace Cert.KernelIdeal.BlockValue

open Cert.KernelIdeal Cert.KernelIdeal.Gen Idealize.ShloMosaic Idealize.ShloMosaic.TcCoe Idealize.ShloMosaic.Tactic
open Idealize.SL.Sem Idealize.ShloMosaic.ValueIdx CostVolume

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The shape of the body's result, for any float values -/

section Structure

variable {F : FTy → Type} [FloatOps F]

/-- The scratch slab after its two stores: zeros everywhere, then the block `x1` of feature2 from column 4 on. -/
def slab (x1 : Vec F S1x128x24x640 .f32) : S128x24x648.Idx → Elt F .f32 :=
  View.canon [(⟨Rect.unit ![0, 0, 4] S128x24x640.size inb_S128x24x648_S128x24x640_0_0_4, k0_pay3 x1⟩ : View.Piece (Elt F) S128x24x648 .f32),
    ⟨Rect.unit ![0, 0, 0] S128x24x648.size inb_S128x24x648_S128x24x648_0_0_0, k0_pay2⟩]

/-- The zero fill covers the whole slab, so every later load of it reads what the two stores left. -/
theorem slab_cover (x1 : Vec F S1x128x24x640 .f32) (y : S128x24x648.Idx) :
    ∃ p ∈ ([(⟨Rect.unit ![0, 0, 4] S128x24x640.size inb_S128x24x648_S128x24x640_0_0_4, k0_pay3 x1⟩ : View.Piece (Elt F) S128x24x648 .f32),
      ⟨Rect.unit ![0, 0, 0] S128x24x648.size inb_S128x24x648_S128x24x648_0_0_0, k0_pay2⟩]), y ∈ p.1.set :=
  ⟨⟨Rect.unit ![0, 0, 0] S128x24x648.size inb_S128x24x648_S128x24x648_0_0_0, k0_pay2⟩,
    List.mem_cons_of_mem _ (List.mem_singleton_self _), View.mem_set_unit_zero hz3 inb_S128x24x648_S128x24x648_0_0_0 y⟩

/-- Columns k … k + 639 of the slab. -/
def window (x1 : Vec F S1x128x24x640 .f32) (k : ℕ)
    (inb : ∀ a, (![0, 0, k] : Fin 3 → ℕ) a + S128x24x640.size a ≤ S128x24x648.size a) : Vec F S128x24x640 .f32 :=
  View.ld (slab x1) (Rect.unit ![0, 0, k] S128x24x640.size inb)

/-- THE OUTPUT BLOCK the body leaves, from the input blocks `x0` (feature1) and `x1` (feature2): the stack of the nine
    channel means of `x0` against the nine windows of the slab. -/
theorem block_eq (c : Dev nD) (i : grid0.Coords) (a2 : Memref sig .tc .vmem S1x128x24x640 .f32) (h2 : a2.IsWhole)
    (a3 : Memref sig .tc .vmem S1x128x24x640 .f32) (h3 : a3.IsWhole) (a4 : Memref sig .tc .vmem S1x9x24x640 .f32) (h4 : a4.IsWhole)
    (a5 : Memref sig .tc .vmem S128x24x648 .f32) (h5 : a5.IsWhole) (x0 x1 : Vec F S1x128x24x640 .f32) :
    out0_A_2 c i a2 h2 a3 h3 a4 h4 a5 h5 x0 x1
      = k0_pay1 (k0_pay8 (k0_pay4 x0) (window x1 0 inb_S128x24x648_S128x24x640_0_0_0))
          (k0_pay8 (k0_pay4 x0) (window x1 1 inb_S128x24x648_S128x24x640_0_0_1))
          (k0_pay8 (k0_pay4 x0) (window x1 2 inb_S128x24x648_S128x24x640_0_0_2))
          (k0_pay8 (k0_pay4 x0) (window x1 3 inb_S128x24x648_S128x24x640_0_0_3))
          (k0_pay8 (k0_pay4 x0) (window x1 4 inb_S128x24x648_S128x24x640_0_0_4))
          (k0_pay8 (k0_pay4 x0) (window x1 5 inb_S128x24x648_S128x24x640_0_0_5))
          (k0_pay8 (k0_pay4 x0) (window x1 6 inb_S128x24x648_S128x24x640_0_0_6))
          (k0_pay8 (k0_pay4 x0) (window x1 7 inb_S128x24x648_S128x24x640_0_0_7))
          (k0_pay8 (k0_pay4 x0) (window x1 8 inb_S128x24x648_S128x24x640_0_0_8)) := by
  unfold out0_A_2
  rw [View.read_writes_eq_canon _ _ _ (cover0_A_2 c i a2 h2 a3 h3 a4 h4 a5 h5 x0 x1)]
  unfold kernelRun0_A
  dsimp only
  sl_unfold_words
  rw [View.canon_unit_zero (S := S1x9x24x640) hz4]
  simp only [View.readAt_eq_ld, h2.read_unread, h3.read_unread, View.ld_unit_zero (S := S1x128x24x640) hz4,
    View.readCov_eq_canon_ld _ _ _ (slab_cover x1)]
  rfl

end Structure

/-! ## The entries, on the extended reals -/

/-- The slab at (c, r, x): row (0, c, r) of the feature2 block widened by four zeros on each side, at column x.
    Columns 4 … 643 lie under the second store and read the block; the others read the zero fill. -/
theorem slab_apply (x1 : Vec Ideal S1x128x24x640 .f32) (c : Fin 128) (r : Fin 24) (x : Fin 648) :
    slab x1 (ix3 c r x) = padRow (fun y => x1 (ix4 (0 : Fin 1) c r y)) x.val := by
  unfold slab
  by_cases hx : 4 ≤ x.val ∧ x.val < 644
  · rw [padRow_inside _ _ hx]
    have e : ix3 c r x = (Rect.unit (s := S128x24x648) ![0, 0, 4] S128x24x640.size inb_S128x24x648_S128x24x640_0_0_4).emb
        (ix3 c r (⟨x.val - 4, by omega⟩ : Fin 640)) :=
      funext fun a => Fin.ext (by
        match a with
        | ⟨0, _⟩ => show c.val = 0 + 1 * c.val; omega
        | ⟨1, _⟩ => show r.val = 0 + 1 * r.val; omega
        | ⟨2, _⟩ => show x.val = 4 + 1 * (x.val - 4); omega)
    rw [e, View.canon_cons_emb]
    simp only [k0_pay3, shapeCast_self]
    exact shapeCast_1abc_abc_apply x1 _ c r _
  · rw [padRow_outside _ _ hx]
    rw [View.canon_cons_of_not_mem _ _ (by
      rw [Rect.mem_set_unit]
      intro hm
      have h2 := hm ⟨2, by decide⟩
      have h2' : 4 ≤ x.val ∧ x.val < 4 + 640 := h2
      omega), View.canon_unit_zero hz3]
    simp only [k0_pay2, shapeCast_self]
    exact Ideal.ofBits_zero_f32

/-- Window k of the slab at (c, r, w) is the widened row at column w + k. -/
theorem window_apply (x1 : Vec Ideal S1x128x24x640 .f32) (k : ℕ) (hk : k ≤ 8)
    (inb : ∀ a, (![0, 0, k] : Fin 3 → ℕ) a + S128x24x640.size a ≤ S128x24x648.size a) (c : Fin 128) (r : Fin 24) (w : Fin 640) :
    window x1 k inb (ix3 c r w) = padRow (fun y => x1 (ix4 (0 : Fin 1) c r y)) (w.val + k) := by
  have e : (Rect.unit (s := S128x24x648) ![0, 0, k] S128x24x640.size inb).idx (ix3 c r w)
      = ix3 c r (⟨w.val + k, by omega⟩ : Fin 648) :=
    funext fun a => Fin.ext (by
      match a with
      | ⟨0, _⟩ => show 0 + 1 * c.val = c.val; omega
      | ⟨1, _⟩ => show 0 + 1 * r.val = r.val; omega
      | ⟨2, _⟩ => show k + 1 * w.val = w.val + k; omega)
  show slab x1 ((Rect.unit (s := S128x24x648) ![0, 0, k] S128x24x640.size inb).idx (ix3 c r w)) = _
  rw [e]
  exact slab_apply x1 c r _

/-- The feature1 block without its unit axis. -/
theorem feature_apply (x0 : Vec Ideal S1x128x24x640 .f32) (c : Fin 128) (r : Fin 24) (w : Fin 640) :
    k0_pay4 x0 (ix3 c r w) = x0 (ix4 (0 : Fin 1) c r w) :=
  shapeCast_1abc_abc_apply x0 _ c r w

/-- The channel mean of a product, at (r, w): the sum over the 128 channels of the products at (c, r, w), divided
    by the float 128 (the sum over the first axis read as a sum over its coordinate). -/
theorem channel_mean_apply (u v : FVec Ideal S128x24x640 .f32) (r : Fin 24) (w : Fin 640) :
    k0_pay8 u v (ix2 r w)
      = Ideal.div (∑ c : Fin 128, u (ix3 c r w) * v (ix3 c r w)) (Ideal.ofBits .f32 0x43000000#32) := by
  show Ideal.div (multiReduction (F := Ideal) .add [0] S24x640 (mulf u v) 0x00000000#32 reduces_S128x24x640_S24x640 (.inl rfl) rfl (ix2 r w)) _ = _
  refine congrArg (Ideal.div · _) ?_
  refine (Ideal.multiReduction_add_single (mulf u v) 0x00000000#32 reduces_S128x24x640_S24x640 (.inl rfl) rfl (ix2 r w)).trans ?_
  refine Finset.sum_congr rfl fun c _ => ?_
  have e : reduces_S128x24x640_S24x640.lift (ix2 r w) c = ix3 c r w :=
    funext fun a => Fin.ext (by match a with | ⟨0, _⟩ => rfl | ⟨1, _⟩ => rfl | ⟨2, _⟩ => rfl)
  rw [e]
  rfl

/-- ONE SHIFT of the output block, read at (r, w): the shifted mean of rows (0, ·, r, ·) of the two input blocks. -/
theorem shift_apply (x0 x1 : Vec Ideal S1x128x24x640 .f32) (k : ℕ) (hk : k ≤ 8)
    (inb : ∀ a, (![0, 0, k] : Fin 3 → ℕ) a + S128x24x640.size a ≤ S128x24x648.size a) (r : Fin 24) (w : Fin 640) :
    k0_pay8 (k0_pay4 x0) (window x1 k inb) (ix2 r w)
      = shiftMean (fun c x => x0 (ix4 (0 : Fin 1) c r x)) (fun c x => x1 (ix4 (0 : Fin 1) c r x)) k w := by
  rw [channel_mean_apply]
  unfold shiftMean
  refine congrArg (Ideal.div · _) (Finset.sum_congr rfl fun c _ => ?_)
  rw [feature_apply, window_apply x1 k hk inb]

/-- The stack of nine [24, 640] arrays with a leading unit axis, read at (u, j, r, w): array j at (r, w). -/
theorem stacked_apply (p : Fin 9 → FVec Ideal S24x640 .f32) (u : Fin 1) (j : Fin 9) (r : Fin 24) (w : Fin 640) :
    k0_pay1 (p 0) (p 1) (p 2) (p 3) (p 4) (p 5) (p 6) (p 7) (p 8) (ix4 u j r w) = p j (ix2 r w) := by
  unfold k0_pay1
  refine (shapeCast_abc_1abc_apply _ _ u j r w).trans ?_
  refine (stack_rows_apply (fun n => shapeCast S1x24x640 (p n) shapeCasts_S24x640_S1x24x640) _ j r w).trans ?_
  exact shapeCast_ab_1ab_apply (p j) _ (0 : Fin 1) r w

/-- THE OUTPUT BLOCK AT AN ENTRY: (u, j, r, w) holds the shifted mean, at shift j and column w, of rows (0, ·, r, ·)
    of the two input blocks. -/
theorem block_apply (c : Dev nD) (i : grid0.Coords) (a2 : Memref sig .tc .vmem S1x128x24x640 .f32) (h2 : a2.IsWhole)
    (a3 : Memref sig .tc .vmem S1x128x24x640 .f32) (h3 : a3.IsWhole) (a4 : Memref sig .tc .vmem S1x9x24x640 .f32) (h4 : a4.IsWhole)
    (a5 : Memref sig .tc .vmem S128x24x648 .f32) (h5 : a5.IsWhole) (x0 x1 : Vec Ideal S1x128x24x640 .f32)
    (u : Fin 1) (j : Fin 9) (r : Fin 24) (w : Fin 640) :
    out0_A_2 c i a2 h2 a3 h3 a4 h4 a5 h5 x0 x1 (ix4 u j r w)
      = shiftMean (fun c x => x0 (ix4 (0 : Fin 1) c r x)) (fun c x => x1 (ix4 (0 : Fin 1) c r x)) j.val w := by
  rw [block_eq]
  refine (stacked_apply ![k0_pay8 (k0_pay4 x0) (window x1 0 inb_S128x24x648_S128x24x640_0_0_0),
    k0_pay8 (k0_pay4 x0) (window x1 1 inb_S128x24x648_S128x24x640_0_0_1),
    k0_pay8 (k0_pay4 x0) (window x1 2 inb_S128x24x648_S128x24x640_0_0_2),
    k0_pay8 (k0_pay4 x0) (window x1 3 inb_S128x24x648_S128x24x640_0_0_3),
    k0_pay8 (k0_pay4 x0) (window x1 4 inb_S128x24x648_S128x24x640_0_0_4),
    k0_pay8 (k0_pay4 x0) (window x1 5 inb_S128x24x648_S128x24x640_0_0_5),
    k0_pay8 (k0_pay4 x0) (window x1 6 inb_S128x24x648_S128x24x640_0_0_6),
    k0_pay8 (k0_pay4 x0) (window x1 7 inb_S128x24x648_S128x24x640_0_0_7),
    k0_pay8 (k0_pay4 x0) (window x1 8 inb_S128x24x648_S128x24x640_0_0_8)] u j r w).trans ?_
  match j with
  | ⟨0, _⟩ => exact shift_apply x0 x1 0 (by decide) inb_S128x24x648_S128x24x640_0_0_0 r w
  | ⟨1, _⟩ => exact shift_apply x0 x1 1 (by decide) inb_S128x24x648_S128x24x640_0_0_1 r w
  | ⟨2, _⟩ => exact shift_apply x0 x1 2 (by decide) inb_S128x24x648_S128x24x640_0_0_2 r w
  | ⟨3, _⟩ => exact shift_apply x0 x1 3 (by decide) inb_S128x24x648_S128x24x640_0_0_3 r w
  | ⟨4, _⟩ => exact shift_apply x0 x1 4 (by decide) inb_S128x24x648_S128x24x640_0_0_4 r w
  | ⟨5, _⟩ => exact shift_apply x0 x1 5 (by decide) inb_S128x24x648_S128x24x640_0_0_5 r w
  | ⟨6, _⟩ => exact shift_apply x0 x1 6 (by decide) inb_S128x24x648_S128x24x640_0_0_6 r w
  | ⟨7, _⟩ => exact shift_apply x0 x1 7 (by decide) inb_S128x24x648_S128x24x640_0_0_7 r w
  | ⟨8, _⟩ => exact shift_apply x0 x1 8 (by decide) inb_S128x24x648_S128x24x640_0_0_8 r w

end Cert.KernelIdeal.BlockValue

end
-- ==== Proof.Whole.lean ====
/- From the blocks to the whole array.

   The grid has 4 × 8 points; point (b, q) reads block (b, 0, q, 0) of each feature array — all 128 channels and
   all 640 columns of rows 24 q … 24 q + 23 of batch entry b — and writes block (b, 0, q, 0) of the result: all nine
   shifts and all columns of the same rows. The shifted mean only looks along the channel and the width axes, which
   a block holds whole, so what a point writes is the restriction of the cost volume of the whole arrays to its
   block; the 32 blocks tile the result. -/
import proofs.«147680_j56745107914800_1_alg».proof.Proof.Block

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx CostVolume Cert.KernelIdeal.BlockValue
open Idealize.ShloMosaic.Pipeline (Dat)

variable (m : (ℓ : Loc nD τ sig) → Buf (Elt Ideal) ℓ) (ρ : Dev nD → PrngReg)

/-- The shifted mean depends on its rows, shift and column only through their values. -/
theorem shiftMean_congr {a a' b b' : Fin 128 → Fin 640 → EReal} {j j' : ℕ} {w w' : Fin 640}
    (ha : ∀ c x, a c x = a' c x) (hb : ∀ c x, b c x = b' c x) (hj : j = j') (hw : w = w') :
    shiftMean a b j w = shiftMean a' b' j' w' := by
  have ea : a = a' := funext fun c => funext fun x => ha c x
  have eb : b = b' := funext fun c => funext fun x => hb c x
  rw [ea, eb, hj, hw]

/-- The block indices, decided over the 32 grid points: the three windows move together along the batch axis and
    the row axis, and stay at block 0 along the other two axes. -/
theorem index_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0 :=
  (by decide +kernel : ∀ t : Fin grid0.N, _)

/-- Every (batch entry, row tile) is some point's output block. -/
theorem index_onto : ∀ (q0 : Fin 4) (q2 : Fin 8), ∃ t : Fin cfg0.N, win0_2.index t = ![q0.val, 0, q2.val, 0] :=
  (by decide +kernel : ∀ (q0 : Fin 4) (q2 : Fin 8), ∃ t : Fin grid0.N, win0_2.index t = ![q0.val, 0, q2.val, 0])

/-- WHAT POINT `t` WRITES BACK is block `t` of the cost volume of the two argument arrays. -/
theorem flushed_eq (c : Dev nD) (t : Fin cfg0.N) :
    (dats m 0 c).flushed 2 t
      = ((cfg0.win 2).blk t).view.read (Elt Ideal) (costVolume (V m c main_arg0) (V m c main_arg1)) := by
  rw [Value.flushed2_A]
  funext y
  obtain ⟨u, j, r, w, rfl⟩ : ∃ (u : Fin 1) (j : Fin 9) (r : Fin 24) (w : Fin 640), y = ix4 u j r w :=
    ⟨y 0, y 1, y 2, y 3, eq_ix4 (n0 := 1) (n1 := 9) (n2 := 24) (n3 := 640) y⟩
  refine (block_apply c (grid0.coords t) (ms0_0 t) (hs0_0 t) (ms0_1 t) (hs0_1 t) (ms0_2 t) (hs0_2 t) scM0_0
    (Memref.isWhole_whole _) (iblk m c 0 t) (iblk m c 1 t) u j r w).trans ?_
  show _ = costVolume (V m c main_arg0) (V m c main_arg1) (((cfg0.win 2).blk t).view.emb (ix4 u j r w))
  unfold costVolume
  obtain ⟨e00, e01, e02, e03, e10, e11, e12, e13, e21, e23⟩ := index_facts t
  have hu : u.val < 1 := u.isLt
  refine shiftMean_congr (fun c' x => ?_) (fun c' x => ?_) ?_ ?_
  · show V m c main_arg0 (((cfg0.win 0).blk t).view.emb (ix4 (0 : Fin 1) c' r x)) = _
    refine congrArg (V m c main_arg0) (funext fun a => Fin.ext ?_)
    match a with
    | ⟨0, _⟩ => show win0_0.index t (0 : Fin 4) * 1 + 1 * 0 = win0_2.index t (0 : Fin 4) * 1 + 1 * u.val; omega
    | ⟨1, _⟩ => show win0_0.index t (1 : Fin 4) * 128 + 1 * c'.val = c'.val; omega
    | ⟨2, _⟩ => show win0_0.index t (2 : Fin 4) * 24 + 1 * r.val = win0_2.index t (2 : Fin 4) * 24 + 1 * r.val; omega
    | ⟨3, _⟩ => show win0_0.index t (3 : Fin 4) * 640 + 1 * x.val = x.val; omega
  · show V m c main_arg1 (((cfg0.win 1).blk t).view.emb (ix4 (0 : Fin 1) c' r x)) = _
    refine congrArg (V m c main_arg1) (funext fun a => Fin.ext ?_)
    match a with
    | ⟨0, _⟩ => show win0_1.index t (0 : Fin 4) * 1 + 1 * 0 = win0_2.index t (0 : Fin 4) * 1 + 1 * u.val; omega
    | ⟨1, _⟩ => show win0_1.index t (1 : Fin 4) * 128 + 1 * c'.val = c'.val; omega
    | ⟨2, _⟩ => show win0_1.index t (2 : Fin 4) * 24 + 1 * r.val = win0_2.index t (2 : Fin 4) * 24 + 1 * r.val; omega
    | ⟨3, _⟩ => show win0_1.index t (3 : Fin 4) * 640 + 1 * x.val = x.val; omega
  · show j.val = win0_2.index t (1 : Fin 4) * 9 + 1 * j.val
    omega
  · refine Fin.ext ?_
    show w.val = win0_2.index t (3 : Fin 4) * 640 + 1 * w.val
    omega

/-- An index of the result is in point `t`'s block iff each coordinate is in the block's range on its axis. -/
theorem mem_blk (t : Fin cfg0.N) (i : S4x9x192x640.Idx) :
    i ∈ ((cfg0.win 2).blk t).view.set ↔ ∀ a : Fin 4, win0_2.index t a * S1x9x24x640.size a ≤ (i a).val
      ∧ (i a).val < win0_2.index t a * S1x9x24x640.size a + S1x9x24x640.size a := by
  show i ∈ ((View.whole main_v0).slice (win0_2.rect t)).set ↔ _
  rw [View.set_slice_whole, Rect.mem_set_unit]
  exact Iff.rfl

/-- THE BLOCKS TILE THE RESULT: the index (b, j, h, w) lies in the block of the point with batch entry b and row
    tile h / 24. -/
theorem cover (i : S4x9x192x640.Idx) :
    ∃ t : Fin cfg0.N, (cfg0.win 2).flush t = true ∧ i ∈ ((cfg0.win 2).blk t).view.set := by
  have hi0 : (i 0).val < 4 := (i 0).isLt
  have hi1 : (i 1).val < 9 := (i 1).isLt
  have hi2 : (i 2).val < 192 := (i 2).isLt
  have hi3 : (i 3).val < 640 := (i 3).isLt
  obtain ⟨t, ht⟩ := index_onto ⟨(i 0).val, hi0⟩ ⟨(i 2).val / 24, by omega⟩
  have q0 : win0_2.index t (0 : Fin 4) = (i 0).val := congrFun ht 0
  have q1 : win0_2.index t (1 : Fin 4) = 0 := congrFun ht 1
  have q2 : win0_2.index t (2 : Fin 4) = (i 2).val / 24 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 9 ≤ (i 1).val ∧ (i 1).val < win0_2.index t (1 : Fin 4) * 9 + 9; omega
  | ⟨2, _⟩ => show win0_2.index t (2 : Fin 4) * 24 ≤ (i 2).val ∧ (i 2).val < win0_2.index t (2 : Fin 4) * 24 + 24; omega
  | ⟨3, _⟩ => show win0_2.index t (3 : Fin 4) * 640 ≤ (i 3).val ∧ (i 3).val < win0_2.index t (3 : Fin 4) * 640 + 640; omega

/-- THE RESULT ARRAY after the run is the cost volume of the two argument arrays. -/
theorem final (c : Dev nD) :
    (dats m 0 c).arrAt 2 cfg0.N
      = costVolume (m ((c : Thread nD τ).loc main_arg0)) (m ((c : Thread nD τ).loc main_arg1)) :=
  (dats m 0 c).arrAt_eq_of_cover 2 (costVolume (V m c main_arg0) (V m c main_arg1)) (fun t _ => flushed_eq m c t) cover

/-- The kernel's run: every weakly fair execution ends with the result array at the cost volume of the arguments and
    the arguments unchanged. -/
theorem run : θ_run defs (onTc (τ := τ) (main (F := Ideal))) ⟨m, fun _ => 0, ρ⟩ fun r => ∀ c : Dev nD,
      r.2.mem ((c : Thread nD τ).loc main_v0)
        = costVolume (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.Reference.lean ====
/- The reference program computes the cost volume.

   Its steps: feature2 is widened by four zero columns on each side; for each shift k = 0 … 8 the widened array is cut
   back to 640 columns starting at column k, multiplied entry by entry with feature1, summed over the channel axis from
   zero and divided by the float 128; the nine [4, 192, 640] results are given a unit axis and stacked along it.
   Read at (b, j, h, w) this is the shifted mean of the rows (b, ·, h, ·) at shift j and column w. -/
import proofs.«147680_j56745107914800_1_alg».proof.Proof.Gen.ReferenceIdeal.Read
import proofs.«147680_j56745107914800_1_alg».proof.Proof.Spec
import proofs.«147680_j56745107914800_1_alg».proof.Proof.Stack
import Idealize.ShloMosaic.Lib.KernelVsHost

noncomputable section

open scoped BigOperators

namespace Cert.ReferenceIdeal.RefValue

open Cert.ReferenceIdeal Cert.ReferenceIdeal.Gen Cert.ReferenceIdeal.Read Idealize.ShloMosaic Idealize.ShloMosaic.ValueIdx CostVolume

/-- The padding value — the integer 0 converted to a float — is the extended real 0. -/
theorem pad_value : val_main_call0_v0 (F := Ideal) (Shape.Idx.first h_S_) = 0 := by
  show (((0#32 : BitVec 32).toInt : ℝ) : EReal) = 0
  simp

/-- The widened array at (b, c, h, x), x a column of 648: row (b, c, h) of feature2 widened by four zeros on each
    side, at column x. -/
theorem widened_apply (g : (⟨S4x128x192x640, .f32⟩ : BufTy).Contents (Elt Ideal)) (b : Fin 4) (c : Fin 128) (h : Fin 192)
    (x : Fin 648) :
    val_main_v0 (F := Ideal) g (ix4 b c h x) = padRow (fun y => g (ix4 b c h y)) x.val := by
  unfold val_main_v0
  by_cases hx : 4 ≤ x.val ∧ x.val < 644
  · rw [padRow_inside _ _ hx]
    exact pad_apply_of_inside _ _ _ g _ pads_S4x128x192x640_S4x128x192x648_000_000_000_440 h_S_ (ix4 b c h x)
      (ix4 b c h ⟨x.val - 4, by omega⟩) (fun a => match a with
        | ⟨0, _⟩ => by show b.val = 0 + b.val * (0 + 1); omega
        | ⟨1, _⟩ => by show c.val = 0 + c.val * (0 + 1); omega
        | ⟨2, _⟩ => by show h.val = 0 + h.val * (0 + 1); omega
        | ⟨3, _⟩ => by show x.val = 4 + (x.val - 4) * (0 + 1); omega)
  · rw [padRow_outside _ _ hx]
    refine (pad_apply_of_not_inside _ _ _ g _ pads_S4x128x192x640_S4x128x192x648_000_000_000_440 h_S_ (ix4 b c h x)
      ⟨3, by decide⟩ ?_).trans pad_value
    show ¬(4 ≤ x.val ∧ (x.val - 4) % (0 + 1) = 0 ∧ (x.val - 4) / (0 + 1) < 640)
    omega

/-- ONE SHIFT: the widened feature2 cut at column k, times feature1, summed over the channels from zero and divided
    by 128, read at (b, h, w), is the shifted mean of the rows (b, ·, h, ·) at shift k. The sum over the channel axis
    is the sum over c of the entry at (b, c, h, w); the zero it starts from adds nothing. -/
theorem shift_apply (k : ℕ) (hk : k ≤ 8) (hs : S4x128x192x648.Slices ![0, 0, 0, k] S4x128x192x640)
    (f g : (⟨S4x128x192x640, .f32⟩ : BufTy).Contents (Elt Ideal)) (b : Fin 4) (h : Fin 192) (w : Fin 640) :
    Host.divf
        (Host.reduceAdd (mulf f (extractStridedSlice S4x128x192x640 ![0, 0, 0, k] (val_main_v0 (F := Ideal) g) hs))
          (constant (F := Ideal) S_ .f32 0x00000000#32) reducesTo_S4x128x192x640_S4x192x640_d1 h_S_)
        (broadcastInDim S4x192x640 ![] bcast_S_S4x192x640 (constant (F := Ideal) S_ .f32 0x43000000#32)) (ix3 b h w)
      = shiftMean (fun c x => f (ix4 b c h x)) (fun c x => g (ix4 b c h x)) k w := by
  have hred : Shape.Reduces S4x128x192x640 [1] S4x192x640 := by decide
  unfold shiftMean
  show Ideal.div _ _ = _
  refine congrArg₂ Ideal.div ?_ ?_
  · simp only [Host.reduceAdd, Ideal.hostReduceAdd_def]
    rw [Ideal.hostReduceAdd_single reducesTo_S4x128x192x640_S4x192x640_d1 hred]
    show Ideal.ofBits .f32 0x00000000#32 + _ = _
    rw [Ideal.ofBits_zero_f32, zero_add]
    refine Finset.sum_congr rfl fun (c : Fin 128) _ => ?_
    have e : hred.lift (ix3 b h w) c = ix4 b c h w :=
      funext fun a => Fin.ext (by match a with | ⟨0, _⟩ => rfl | ⟨1, _⟩ => rfl | ⟨2, _⟩ => rfl | ⟨3, _⟩ => rfl)
    rw [e]
    show f (ix4 b c h w) * extractStridedSlice S4x128x192x640 ![0, 0, 0, k] (val_main_v0 (F := Ideal) g) hs (ix4 b c h w) = _
    refine congrArg (f (ix4 b c h w) * ·) ?_
    refine (extractStridedSlice_apply ![0, 0, 0, k] (val_main_v0 (F := Ideal) g) hs (ix4 b c h w)
      (ix4 b c h (⟨w.val + k, by omega⟩ : Fin 648)) (fun a => match a with
        | ⟨0, _⟩ => by show b.val = 0 + b.val; omega
        | ⟨1, _⟩ => by show c.val = 0 + c.val; omega
        | ⟨2, _⟩ => by show h.val = 0 + h.val; omega
        | ⟨3, _⟩ => by show w.val + k = k + w.val; omega)).trans ?_
    exact widened_apply g b c h _
  · exact broadcastInDim_apply _ bcast_S_S4x192x640 _ (ix3 b h w) ix0 (fun a => a.elim0)

/-- One shift's result with its unit axis, read at (b, 0, h, w). -/
theorem shift_unit_apply (k : ℕ) (hk : k ≤ 8) (hs : S4x128x192x648.Slices ![0, 0, 0, k] S4x128x192x640)
    (f g : (⟨S4x128x192x640, .f32⟩ : BufTy).Contents (Elt Ideal)) (b : Fin 4) (h : Fin 192) (w : Fin 640)
    (P : (⟨S4x1x192x640, .f32⟩ : BufTy).Contents (Elt Ideal))
    (hP : P = broadcastInDim S4x1x192x640 ![0, 2, 3] bcast_S4x192x640_S4x1x192x640_0_2_3
      (Host.divf
        (Host.reduceAdd (mulf f (extractStridedSlice S4x128x192x640 ![0, 0, 0, k] (val_main_v0 (F := Ideal) g) hs))
          (constant (F := Ideal) S_ .f32 0x00000000#32) reducesTo_S4x128x192x640_S4x192x640_d1 h_S_)
        (broadcastInDim S4x192x640 ![] bcast_S_S4x192x640 (constant (F := Ideal) S_ .f32 0x43000000#32)))) :
    P (ix4 b (0 : Fin 1) h w) = shiftMean (fun c x => f (ix4 b c h x)) (fun c x => g (ix4 b c h x)) k w := by
  subst hP
  rw [broadcastInDim_apply _ bcast_S4x192x640_S4x1x192x640_0_2_3 _ (ix4 b (0 : Fin 1) h w) (ix3 b h w) (fun a => match a with
    | ⟨0, _⟩ => by show b.val = if (4 : Nat) = 1 then 0 else b.val; rw [if_neg (by decide)]
    | ⟨1, _⟩ => by show h.val = if (192 : Nat) = 1 then 0 else h.val; rw [if_neg (by decide)]
    | ⟨2, _⟩ => by show w.val = if (640 : Nat) = 1 then 0 else w.val; rw [if_neg (by decide)])]
  exact shift_apply k hk hs f g b h w

/-- THE REFERENCE'S RESULT is the cost volume of its two arguments: entry (b, j, h, w) of the stack is shift j's
    result at (b, h, w). -/
theorem result_eq (f g : (⟨S4x128x192x640, .f32⟩ : BufTy).Contents (Elt Ideal)) :
    val_main_v55 (F := Ideal) f g = costVolume f g := by
  funext i
  obtain ⟨b, j, h, w, rfl⟩ : ∃ (b : Fin 4) (j : Fin 9) (h : Fin 192) (w : Fin 640), i = ix4 b j h w :=
    ⟨i 0, i 1, i 2, i 3, eq_ix4 i⟩
  unfold val_main_v55
  refine (stack_shifts_apply ![val_main_v46 (F := Ideal) f g, val_main_v47 (F := Ideal) f g, val_main_v48 (F := Ideal) f g, val_main_v49 (F := Ideal) f g, val_main_v50 (F := Ideal) f g, val_main_v51 (F := Ideal) f g, val_main_v52 (F := Ideal) f g, val_main_v53 (F := Ideal) f g, val_main_v54 (F := Ideal) f g] _ b j h w).trans ?_
  match j with
  | ⟨0, _⟩ => exact shift_unit_apply 0 (by decide) slices_S4x128x192x648_S4x128x192x640_0_0_0_0 f g b h w (val_main_v46 (F := Ideal) f g) rfl
  | ⟨1, _⟩ => exact shift_unit_apply 1 (by decide) slices_S4x128x192x648_S4x128x192x640_0_0_0_1 f g b h w (val_main_v47 (F := Ideal) f g) rfl
  | ⟨2, _⟩ => exact shift_unit_apply 2 (by decide) slices_S4x128x192x648_S4x128x192x640_0_0_0_2 f g b h w (val_main_v48 (F := Ideal) f g) rfl
  | ⟨3, _⟩ => exact shift_unit_apply 3 (by decide) slices_S4x128x192x648_S4x128x192x640_0_0_0_3 f g b h w (val_main_v49 (F := Ideal) f g) rfl
  | ⟨4, _⟩ => exact shift_unit_apply 4 (by decide) slices_S4x128x192x648_S4x128x192x640_0_0_0_4 f g b h w (val_main_v50 (F := Ideal) f g) rfl
  | ⟨5, _⟩ => exact shift_unit_apply 5 (by decide) slices_S4x128x192x648_S4x128x192x640_0_0_0_5 f g b h w (val_main_v51 (F := Ideal) f g) rfl
  | ⟨6, _⟩ => exact shift_unit_apply 6 (by decide) slices_S4x128x192x648_S4x128x192x640_0_0_0_6 f g b h w (val_main_v52 (F := Ideal) f g) rfl
  | ⟨7, _⟩ => exact shift_unit_apply 7 (by decide) slices_S4x128x192x648_S4x128x192x640_0_0_0_7 f g b h w (val_main_v53 (F := Ideal) f g) rfl
  | ⟨8, _⟩ => exact shift_unit_apply 8 (by decide) slices_S4x128x192x648_S4x128x192x640_0_0_0_8 f g b h w (val_main_v54 (F := Ideal) f g) rfl

end Cert.ReferenceIdeal.RefValue

end
-- ==== Proof.lean ====
/- The proof of the certificate's claim for the horizontal cost volume: for a shift j in 0..8 the output entry
   (b, j, h, w) is the mean over the 128 channels c of feature1[b,c,h,w] times feature2 padded with four zeros on
   each side of the width axis, read at column w + j. The kernel builds the padded slab per block of 24 rows in a
   scratch buffer; the reference pads the whole array. Both are the same function of the two arrays. -/
import proofs.«147680_j56745107914800_1_alg».proof.Defs
import proofs.«147680_j56745107914800_1_alg».proof.Proof.Gen.Kernel
import proofs.«147680_j56745107914800_1_alg».proof.Proof.Gen.Kernel.Skeleton
import proofs.«147680_j56745107914800_1_alg».proof.Proof.Gen.Kernel.Launch
import proofs.«147680_j56745107914800_1_alg».proof.Proof.Gen.Kernel.Points
import proofs.«147680_j56745107914800_1_alg».proof.Proof.Gen.Kernel.Frame
import proofs.«147680_j56745107914800_1_alg».proof.Proof.Gen.KernelIdeal
import proofs.«147680_j56745107914800_1_alg».proof.Proof.Gen.KernelIdeal.Skeleton
import proofs.«147680_j56745107914800_1_alg».proof.Proof.Gen.KernelIdeal.Launch
import proofs.«147680_j56745107914800_1_alg».proof.Proof.Gen.KernelIdeal.Points
import proofs.«147680_j56745107914800_1_alg».proof.Proof.Gen.KernelIdeal.Frame
import proofs.«147680_j56745107914800_1_alg».proof.Proof.Gen.ReferenceIdeal
import proofs.«147680_j56745107914800_1_alg».proof.Proof.Gen.KernelIdeal.Value
import proofs.«147680_j56745107914800_1_alg».proof.Proof.Gen.ReferenceIdeal.Run
import proofs.«147680_j56745107914800_1_alg».proof.Proof.Gen.ReferenceIdeal.Read
import proofs.«147680_j56745107914800_1_alg».proof.Proof.Whole
import proofs.«147680_j56745107914800_1_alg».proof.Proof.Reference
import proofs.«147680_j56745107914800_1_alg».proof.Proof.Gen.Pre_finite_inputs
import Idealize.ShloMosaic.Adequacy
import Idealize.ShloMosaic.Init

noncomputable section

namespace Cert.Proof

open Idealize.ShloMosaic Idealize.SL.Sem CostVolume

/-- The kernel as printed runs to the end without a fault and leaves its two arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- Over the extended reals the kernel's result array and the reference's result are both the cost volume of the two
    arguments: the kernel's by its blocks (each the cost volume restricted to 24 rows, together tiling the array), the
    reference's operation by operation. The two sides are the same term — the same products in the same order, the same
    sum over the channels, the same division — so no property of the inputs is used. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
